-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S32x1x1024 : Shape := ⟨3, ![32, 1, 1024]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel
  bcast_S_S32x1x1024 : S_.BroadcastsInDim S32x1x1024 (![] : Fin 0 → Fin S32x1x1024.rank)
  reducesTo_S32x1x1024_S_d0_1_2 : S32x1x1024.ReducesTo [0, 1, 2] S_

variable [Facts]

def fn {F : FTy → Type} [FloatOps F] (main_arg0 : FVec F S32x4096x1024 .f32) (main_arg1 : FVec F S32x1x1024 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  let main_v4 : FVec F S32x1x1024 .f32 := Host.absf main_arg1
  let main_cst_0 : FVec F S_ .f32 := constant S_ .f32 0x7F800000#32
  let main_v5 : FVec F S32x1x1024 .f32 := broadcastInDim S32x1x1024 ![] bcast_S_S32x1x1024 main_cst_0
  let main_v6 : IVec S32x1x1024 1 := cmpf .olt main_v4 main_v5
  let main_c_1 : IVec S_ 1 := constantI S_ 1 1#1
  let main_v7 : IVec S_ 1 := (fun x v => Host.reduce IntOp.andi x v reducesTo_S32x1x1024_S_d0_1_2 h_S_) main_v6 main_c_1
  let main_v8 : IVec S_ 1 := andi main_v3 main_v7
  main_v8
-- ==== Kernel.lean ====
abbrev S32x4096x1024 : Shape := ⟨3, ![32, 4096, 1024]⟩
abbrev S32x1x1024 : Shape := ⟨3, ![32, 1, 1024]⟩
abbrev S32x4096x1 : Shape := ⟨3, ![32, 4096, 1]⟩
abbrev S8x256x1024 : Shape := ⟨3, ![8, 256, 1024]⟩
abbrev S8x1x1024 : Shape := ⟨3, ![8, 1, 1024]⟩
abbrev S8x256x1 : Shape := ⟨3, ![8, 256, 1]⟩
abbrev S32x4096 : Shape := ⟨2, ![32, 4096]⟩
abbrev S_ : Shape := ⟨0, ![]⟩
abbrev S32 : Shape := ⟨1, ![32]⟩
abbrev S32x1 : Shape := ⟨2, ![32, 1]⟩
abbrev S32x1x4096 : Shape := ⟨3, ![32, 1, 4096]⟩
abbrev S8x1x256 : Shape := ⟨3, ![8, 1, 256]⟩

abbrev nBuf : Space → Nat
  | .hbm => 20
  | .vmem => 13
  | .smem => 0
  | _ => 0

abbrev bufTy : (tb : Table) → Fin (tcTables nBuf tb) → BufTy
  | .hbm, ⟨0, _⟩ => ⟨S32x4096x1024, .f32⟩
  | .hbm, ⟨1, _⟩ => ⟨S32x1x1024, .f32⟩
  | .hbm, ⟨2, _⟩ => ⟨S32x4096x1, .f32⟩
  | .hbm, ⟨3, _⟩ => ⟨S32x4096, .f32⟩
  | .hbm, ⟨4, _⟩ => ⟨S_, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32x1, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S_, .f32⟩
  | .hbm, ⟨14, _⟩ => ⟨S32, .f32⟩
  | .hbm, ⟨15, _⟩ => ⟨S32x1, .f32⟩
  | .hbm, ⟨16, _⟩ => ⟨S32x4096, .f32⟩
  | .hbm, ⟨17, _⟩ => ⟨S32x4096, .f32⟩
  | .hbm, ⟨18, _⟩ => ⟨S32x1x4096, .f32⟩
  | .hbm, ⟨19, _⟩ => ⟨S32x1x1024, .f32⟩
  | .local _ .vmem, ⟨0, _⟩ => ⟨S8x256x1024, .f32⟩
  | .local _ .vmem, ⟨1, _⟩ => ⟨S8x256x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x256x1, .f32⟩
  | .local _ .vmem, ⟨5, _⟩ => ⟨S8x256x1, .f32⟩
  | .local _ .vmem, ⟨6, _⟩ => ⟨S8x256x1024, .f32⟩
  | .local _ .vmem, ⟨7, _⟩ => ⟨S8x256x1024, .f32⟩
  | .local _ .vmem, ⟨8, _⟩ => ⟨S8x1x256, .f32⟩
  | .local _ .vmem, ⟨9, _⟩ => ⟨S8x1x256, .f32⟩
  | .local _ .vmem, ⟨10, _⟩ => ⟨S8x1x1024, .f32⟩
  | .local _ .vmem, ⟨11, _⟩ => ⟨S8x1x1024, .f32⟩
  | .local _ .vmem, ⟨12, _⟩ => ⟨S8x1x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_12 : BitVec 32 := 0#32
  let v16 : BitVec 1 := Scalar.cmpi .ne v15 c0_i32_12
  v16

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x256x1024_S8x256x1024_0_0_0 : ∀ a, (![0, 0, 0] : Fin 3 → Nat) a + S8x256x1024.size a ≤ S8x256x1024.size a
  h_S8x256x1024 : 0 < S8x256x1024.numel
  bitsLt_bf16_f32 : FTy.bits .bf16 < FTy.bits .f32
  inb_S8x1x1024_S8x1x1024_0_0_0 : ∀ a, (![0, 0, 0] : Fin 3 → Nat) a + S8x1x1024.size a ≤ S8x1x1024.size a
  h_S8x1x1024 : 0 < S8x1x1024.numel
  inb_S8x256x1_S8x256x1_0_0_0 : ∀ a, (![0, 0, 0] : Fin 3 → Nat) a + S8x256x1.size a ≤ S8x256x1.size a
  h_S8x256x1 : 0 < S8x256x1.numel
  shapeCasts_S32x4096x1_S32x4096 : S32x4096x1.ShapeCasts S32x4096
  reducesTo_S32x4096_S32_d1 : S32x4096.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x4096_0_1 : S32x1.BroadcastsInDim S32x4096 (![0, 1] : Fin 2 → Fin S32x4096.rank)
  bcast_S32x4096_S32x1x4096_0_2 : S32x4096.BroadcastsInDim S32x1x4096 (![0, 2] : Fin 2 → Fin S32x1x4096.rank)
  shapeCasts_S8x1x1024_S8x1x1024 : S8x1x1024.ShapeCasts S8x1x1024
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  dot_S8x256x1024_S8x1x1024_S8x256x1_2_2_1_1_0_0_wf : DotDims.WF S8x256x1024 S8x1x1024 S8x256x1 [2] [2] [1] [1] [0] [0]
  dot_S8x1x256_S8x256x1024_S8x1x1024_2_1_1_2_0_0_wf : DotDims.WF S8x1x256 S8x256x1024 S8x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S32x4096x1024.size a
  hwx0_0 : ∀ i : grid0.Coords, EltTy.bits .f32 = 32 ∨ (Rect.block (s := S32x4096x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1024.size a ≤ S32x1x1024.size a
  hwx0_1 : ∀ i : grid0.Coords, EltTy.bits .f32 = 32 ∨ (Rect.block (s := S32x1x1024) S8x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x1.size a ≤ S32x4096x1.size a
  hwx0_2 : ∀ i : grid0.Coords, EltTy.bits .f32 = 32 ∨ (Rect.block (s := S32x4096x1) S8x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S32x4096x1024.size a
  hwx1_0 : ∀ i : grid1.Coords, EltTy.bits .f32 = 32 ∨ (Rect.block (s := S32x4096x1024) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1x256.size a ≤ S32x1x4096.size a
  hwx1_1 : ∀ i : grid1.Coords, EltTy.bits .f32 = 32 ∨ (Rect.block (s := S32x1x4096) S8x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1x1024.size a ≤ S32x1x1024.size a
  hwx1_2 : ∀ i : grid1.Coords, EltTy.bits .f32 = 32 ∨ (Rect.block (s := S32x1x1024) S8x1x1024.size (cc1_transform_2 i) (hinb1_2 i)).WholeWords (EltTy.packing .f32)

variable [Facts₀]

def dot_S8x256x1024_S8x1x1024_S8x256x1_2_2_1_1_0_0 : DotDims S8x256x1024 S8x1x1024 S8x256x1 where
  lhsContracting := [2]
  rhsContracting := [2]
  lhsNonContracting := [1]
  rhsNonContracting := [1]
  lhsBatch := [0]
  rhsBatch := [0]
  wf := dot_S8x256x1024_S8x1x1024_S8x256x1_2_2_1_1_0_0_wf
def dot_S8x1x256_S8x256x1024_S8x1x1024_2_1_1_2_0_0 : DotDims S8x1x256 S8x256x1024 S8x1x1024 where
  lhsContracting := [2]
  rhsContracting := [1]
  lhsNonContracting := [1]
  rhsNonContracting := [2]
  lhsBatch := [0]
  rhsBatch := [0]
  wf := dot_S8x1x256_S8x256x1024_S8x1x1024_2_1_1_2_0_0_wf

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x4096x1024 : Shape := ⟨3, ![32, 4096, 1024]⟩
abbrev S32x1x1024 : Shape := ⟨3, ![32, 1, 1024]⟩
abbrev S_ : Shape := ⟨0, ![]⟩
abbrev S32x4096 : Shape := ⟨2, ![32, 4096]⟩
abbrev S32 : Shape := ⟨1, ![32]⟩
abbrev S32x1 : Shape := ⟨2, ![32, 1]⟩
abbrev S32x4096x1 : Shape := ⟨3, ![32, 4096, 1]⟩
abbrev S32x1024 : Shape := ⟨2, ![32, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x1x1024, .f32⟩
  | .hbm, ⟨2, _⟩ => ⟨S32x4096x1024, .f32⟩
  | .hbm, ⟨3, _⟩ => ⟨S32x4096x1024, .f32⟩
  | .hbm, ⟨4, _⟩ => ⟨S_, .f32⟩
  | .hbm, ⟨5, _⟩ => ⟨S32x4096, .f32⟩
  | .hbm, ⟨6, _⟩ => ⟨S_, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32x4096, .f32⟩
  | .hbm, ⟨13, _⟩ => ⟨S32x4096, .f32⟩
  | .hbm, ⟨14, _⟩ => ⟨S32x4096, .f32⟩
  | .hbm, ⟨15, _⟩ => ⟨S_, .f32⟩
  | .hbm, ⟨16, _⟩ => ⟨S32, .f32⟩
  | .hbm, ⟨17, _⟩ => ⟨S32x1, .f32⟩
  | .hbm, ⟨18, _⟩ => ⟨S32x4096, .f32⟩
  | .hbm, ⟨19, _⟩ => ⟨S32x4096, .f32⟩
  | .hbm, ⟨20, _⟩ => ⟨S32x4096x1, .f32⟩
  | .hbm, ⟨21, _⟩ => ⟨S32x4096x1024, .f32⟩
  | .hbm, ⟨22, _⟩ => ⟨S32x4096x1024, .f32⟩
  | .hbm, ⟨23, _⟩ => ⟨S_, .f32⟩
  | .hbm, ⟨24, _⟩ => ⟨S32x1024, .f32⟩
  | .hbm, ⟨25, _⟩ => ⟨S32x1x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S32x1x1024_S32x4096x1024_0_1_2 : S32x1x1024.BroadcastsInDim S32x4096x1024 (![0, 1, 2] : Fin 3 → Fin S32x4096x1024.rank)
  reducesTo_S32x4096x1024_S32x4096_d2 : S32x4096x1024.ReducesTo [2] S32x4096
  h_S_ : 0 < S_.numel
  reducesTo_S32x4096_S32_d1 : S32x4096.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x4096_0_1 : S32x1.BroadcastsInDim S32x4096 (![0, 1] : Fin 2 → Fin S32x4096.rank)
  bcast_S32x4096_S32x4096x1_0_1 : S32x4096.BroadcastsInDim S32x4096x1 (![0, 1] : Fin 2 → Fin S32x4096x1.rank)
  bcast_S32x4096x1_S32x4096x1024_0_1_2 : S32x4096x1.BroadcastsInDim S32x4096x1024 (![0, 1, 2] : Fin 3 → Fin S32x4096x1024.rank)
  reducesTo_S32x4096x1024_S32x1024_d1 : S32x4096x1024.ReducesTo [1] S32x1024
  bcast_S32x1024_S32x1x1024_0_2 : S32x1024.BroadcastsInDim S32x1x1024 (![0, 2] : Fin 2 → Fin S32x1x1024.rank)

variable [Facts₀]

class Facts : Prop extends Facts₀ where

variable [Facts]
-- ==== Proof.KReg0.lean ====
/-
  The score pass (the first of the program's two kernel regions), at any float instance and at a PARAMETER `V`, the
  contents of the core's buffers when the region is entered. The grid has 4 × 16 points; at point (bi, ti) the
  body is handed rows 8·bi … 8·bi+7, times 256·ti … 256·ti+255 of the first argument (all 1024 features), the
  same eight batch rows of the second argument (its one time row), and writes the 8 × 256 × 1 block of scores
  of those rows: one whole-block store of one pure value of the two loaded blocks (the contraction over the
  feature axis). Nothing is carried from one point to the next, so what the output's staging buffer holds after
  the body is a function of the point's two input blocks alone, and each input's buffer holds its block at
  every point, fetched there or kept from the point before (the second argument's block moves only when bi does).
-/
import proofs.«181349_j1580547973475_1_alg».proof.Proof.Gen.Kernel.Launch
import proofs.«181349_j1580547973475_1_alg».proof.Proof.Gen.Kernel.Skeleton
import proofs.«181349_j1580547973475_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Score
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first argument's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second argument's staging buffer holds its block at every point: where the block is not fetched its index
    has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S8x256x1024 := Rect.unit (s := S8x256x1024) ![0, 0, 0] S8x256x1024.size inb_S8x256x1024_S8x256x1024_0_0_0
abbrev r0_1 : Rect S8x1x1024 := Rect.unit (s := S8x1x1024) ![0, 0, 0] S8x1x1024.size inb_S8x1x1024_S8x1x1024_0_0_0
abbrev r0_2 : Rect S8x256x1 := Rect.unit (s := S8x256x1) ![0, 0, 0] S8x256x1.size inb_S8x256x1_S8x256x1_0_0_0

/-- What the body leaves in the scores' staging buffer, from the two input blocks: its one store. -/
def out0_2 (x0 : Vec F S8x256x1024 .f32) (x1 : Vec F S8x1x1024 .f32) : Vec F S8x256x1 .f32 :=
  View.canon [⟨r0_2, k0_pay1 (View.ld x0 r0_0) (View.ld x1 r0_1)⟩]

/-- The one store is the whole block, so it covers it. -/
theorem cover0_2 (p0 : Vec F S8x256x1 .f32) (y : S8x256x1.Idx) :
    ∃ pc ∈ ([⟨r0_2, p0⟩] : List (View.Piece (Elt F) S8x256x1 .f32)), y ∈ pc.1.set :=
  View.cover_of_tiled [⟨r0_2, p0⟩] S8x256x1.size (by rfl) y

/-! ## The body's triple -/

set_option maxHeartbeats 1000000 in
/-- On whole staging buffers, the two inputs' at contents `x0`, `x1` and the output's at anything, the body runs
    to the continuation with the inputs' as they were and the output's at `out0_2 x0 x1`. -/
theorem sound_kernel0 (c : Dev nD) (E : Set ℕ) (i : grid0.Coords)
    (arg2 : Memref sig .tc .vmem S8x256x1024 .f32) (harg2 : arg2.IsWhole)
    (arg3 : Memref sig .tc .vmem S8x1x1024 .f32) (harg3 : arg3.IsWhole)
    (arg4 : Memref sig .tc .vmem S8x256x1 .f32) (harg4 : arg4.IsWhole)
    (x0 : Vec F S8x256x1024 .f32) (x1 : Vec F S8x1x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__score_kernel i arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at `out0_2` of the two blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Score

end Cert.Kernel.Hand

end
-- ==== Proof.KReg1.lean ====
/-
  The context pass (the second kernel region), at any float instance and at a PARAMETER `V`, the contents of the
  core's buffers when the region is entered. The grid has 4 × 16 points, the time tile `ti` the minor coordinate. At
  point (bi, ti) the body is handed rows 8·bi … 8·bi+7, times 256·ti … 256·ti+255 of the first argument and the same
  rows and times of the weights. It keeps an 8 × 1 × 1024 accumulator in a scratch buffer of its own ACROSS points:
  at ti = 0 it first stores zero into it; at every point it adds the tile's weighted sum of rows to it; at ti = 15 it
  copies it into the output's staging buffer, which is written back there and only there. So the body has three
  control cases over the grid — first tile (reset, add), middle tile (add), last tile (add, copy out) — and what the
  scratch holds after point `n` is defined by recursion on `n` (`outsAt1`): a first tile starts afresh, any other
  tile from what the point before left. The region's invariant carries the scratch at exactly those contents.
-/
import proofs.«181349_j1580547973475_1_alg».proof.Proof.Gen.Kernel.Launch
import proofs.«181349_j1580547973475_1_alg».proof.Proof.Gen.Kernel.Skeleton
import proofs.«181349_j1580547973475_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first time tile": the reset's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last time tile": the copy-out's condition. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle: everywhere but at the last tile, where it is stored and written back -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S8x1x1024 .f32 := (Memref.whole cc1_stg2_0 : Memref sig .tc .vmem S8x1x1024 .f32).view
abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S8x1x1024 .f32 := Memref.whole cc1_scratch0
abbrev VS1_0 : View sig .tc .vmem S8x1x1024 .f32 := scM1_0.view

/-- What the region is handed besides its windows: the other call's six staging buffers at anything, the
    accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case: the pieces each buffer ends with are found by the run itself -/

set_option maxHeartbeats 2000000 in
/-- FIRST TILE (reset taken, copy-out not taken): the inputs at their blocks, the idle output handed back untouched,
    the accumulator taken at anything and left with the run's pieces written. -/
noncomputable def kernelRun1_A (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) :
    Σ' (L2 : List (View.Piece (Elt F) S8x1x1024 .f32)), { LS0 : List (View.Piece (Elt F) S8x1x1024 .f32) //
      ∀ (xi2 : Vec F S8x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- MIDDLE TILE (neither branch taken): the accumulator taken at what the point before left. -/
noncomputable def kernelRun1_B (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) :
    Σ' (L2 : List (View.Piece (Elt F) S8x1x1024 .f32)), { LS0 : List (View.Piece (Elt F) S8x1x1024 .f32) //
      ∀ (xi2 : Vec F S8x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- LAST TILE (copy-out taken): the output's buffer taken at anything and left with the run's pieces written. -/
noncomputable def kernelRun1_C (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) :
    Σ' (L2 : List (View.Piece (Elt F) S8x1x1024 .f32)), { LS0 : List (View.Piece (Elt F) S8x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨?_, ?_, fun E K => ?run⟩
  case run =>
    simp only [cc1__ctx_kernel_eq_skeleton]; unfold cc1__ctx_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

section Context
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the accumulator -/

def out1_A_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) : Vec F S8x1x1024 .f32 :=
  VO1_2.read (Elt F) (VO1_2.writes (Elt F) VO1_2.junk (kernelRun1_A c i arg2 harg2 arg3 harg3 arg4 harg4 arg5 harg5 hc0 hc1 x0 x1).1)
theorem scover1_A_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) (y : S8x1x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x1x1024.size (by sl_kernel_rfl) y
def sout1_A_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) : Vec F S8x1x1024 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) : Vec F S8x1x1024 .f32 :=
  VO1_2.read (Elt F) (VO1_2.writes (Elt F) VO1_2.junk (kernelRun1_B c i arg2 harg2 arg3 harg3 arg4 harg4 arg5 harg5 hc0 hc1 x0 x1 xs0).1)
theorem scover1_B_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) (y : S8x1x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x1x1024.size (by sl_kernel_rfl) y
def sout1_B_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) : Vec F S8x1x1024 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) (y : S8x1x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x1x1024.size (by sl_kernel_rfl) y
def out1_C_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) : Vec F S8x1x1024 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) (y : S8x1x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x1x1024.size (by sl_kernel_rfl) y
def sout1_C_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) : Vec F S8x1x1024 .f32 :=
  VS1_0.read (Elt F) (VS1_0.writes (Elt F) VS1_0.junk (kernelRun1_C c i arg2 harg2 arg3 harg3 arg4 harg4 arg5 harg5 hc0 hc1 x0 x1 xs0).2.1)

/-! ## The accumulation, point by point -/

/-- What the output's staging buffer and the accumulator hold after the body at position `n` (a pair): the case
    the closed forms select at `n`, run on the point's input blocks, a middle or last tile from the accumulator
    the point before left. -/
def outsAt1 (c : Dev nD) : (n : ℕ) → n < cfg1.N → Vec F S8x1x1024 .f32 × Vec F S8x1x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator at what the point before left -/

def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the inputs' buffers hold their blocks;
    the invariant hands the body the accumulator (at what the point before left, or at anything before the very
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨A0, A1, A2, A3, A4, A5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨A0, A1, A2, A3, A4, A5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS_castSucc V c t, PhiS_pos V c _ _ hz]
        iintro ⟨⟨⟨A0, A1, A2, A3, A4, A5, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨A0, A1, A2, A3, A4, A5, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨A0, A1, A2, A3, A4, A5, HS0⟩, Hg⟩
  isplitl [A0 A1 A2 A3 A4 A5 HS0]
  · isplitl [A0]; · iexact A0
    isplitl [A1]; · iexact A1
    isplitl [A2]; · iexact A2
    isplitl [A3]; · iexact A3
    isplitl [A4]; · iexact A4
    isplitl [A5]; · iexact A5
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Context

end Cert.Kernel.Hand

end
-- ==== Proof.KRun.lean ====
/-
  The whole run of the program at any float instance: the score pass, the sixteen host operations of the softmax
  between the passes, the context pass. The contents of the core's unscoped buffers are followed from boundary to
  boundary — at launch (`W0`); after the score pass, whose output array then holds what its write-backs left and
  nothing else has changed (`W1`); after the host operations (`W2`); after the context pass (`W3`) — and every
  weakly fair execution from any memory with zero counters terminates, without a fault, in a state whose every
  unscoped buffer holds `W3`. The two arguments are written by no operation and by neither pass, so they read
  back through the four boundaries as launched.
-/
import proofs.«181349_j1580547973475_1_alg».proof.Proof.KReg0
import proofs.«181349_j1580547973475_1_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- After the score pass: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the host operations between the passes. -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- After the context pass. -/
def W3 (c : Dev nD) : Valuation τ sig (Elt F) :=
  Pipeline.withArrays spec1 c (W2 m ρ c) fun w => (dat1 (V2r m ρ) c).arrAt w cfg1.N
theorem W3_arr (c : Dev nD) (w : Fin cfg1.W) :
    W3 m ρ c (Proc.devRef .tc (Pipeline.arrRef spec1 w)) = (dat1 (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3r : (c : Dev nD) → (b : Ref sig .tc) → Buf (Elt F) ((c : Thread nD τ).loc b) := fun c b => W3 m ρ c b
theorem hF1 (c : Dev nD) (w : Fin cfg1.W) : (dat1 (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-- No host operation between the passes allocates a buffer. -/
theorem hostOps1_fresh' : (hostOps1 : List (HloOp τ sig (Elt F))).Forall fun op => op.fresh = ∅ := by
  simp only [List.Forall]; repeat' constructor

/-- No host operation between the passes writes the first argument, -/
theorem W2_keeps_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- nor the second. -/
theorem W2_keeps_arg1 (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2r m ρ) c).arrAt_in 0 rfl _).trans (A_eq1 (V2r m ρ) c 0))
    _ = W1 m ρ c (Proc.devRef .tc main_arg0) := W2_keeps_arg0 m ρ c
    _ = W0 m ρ c (Proc.devRef .tc main_arg0) := (W1_arr m ρ c 0).trans (((dat0 (V0r m ρ) c).arrAt_in 0 rfl _).trans (A_eq0 (V0r m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_keeps_arg1 m ρ c
    _ = W0 m ρ c (Proc.devRef .tc main_arg1) := (W1_arr m ρ c 1).trans (((dat0 (V0r m ρ) c).arrAt_in 1 rfl _).trans (A_eq0 (V0r m ρ) c 1))
    _ = m ((c : Thread nD τ).loc main_arg1) := rfl

/-! ## The proof data family and the thread state -/

abbrev adm : (p : Fin 2) → (pcfgs (F := F) p).Adm := fun p => (cfgs p).toPCfg_adm
/-- Each pass's proof data at its own entry contents: a literal match on the pass. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The passes as segments -/

set_option backward.isDefEq.respectTransparency.types false in
/-- The score pass over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The context pass over the thread state: entered from every unscoped buffer at `W2`, left at `W3`. Its invariant
    starts as what the launch hands a region and ends by giving that back, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at `W3`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

/-- The frame claim's post: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W3_main_arg0 m ρ c),
    (h c main_arg1 (by decide)).trans (W3_main_arg1 m ρ c)⟩) (run_all m ρ)

end Cert.Kernel.Hand

end
-- ==== Proof.KIReg0.lean ====
/-
  The score pass (the first of the program's two kernel regions), at any float instance and at a PARAMETER `V`, the
  contents of the core's buffers when the region is entered. The grid has 4 × 16 points; at point (bi, ti) the
  body is handed rows 8·bi … 8·bi+7, times 256·ti … 256·ti+255 of the first argument (all 1024 features), the
  same eight batch rows of the second argument (its one time row), and writes the 8 × 256 × 1 block of scores
  of those rows: one whole-block store of one pure value of the two loaded blocks (the contraction over the
  feature axis). Nothing is carried from one point to the next, so what the output's staging buffer holds after
  the body is a function of the point's two input blocks alone, and each input's buffer holds its block at
  every point, fetched there or kept from the point before (the second argument's block moves only when bi does).
-/
import proofs.«181349_j1580547973475_1_alg».proof.Proof.Gen.KernelIdeal.Launch
import proofs.«181349_j1580547973475_1_alg».proof.Proof.Gen.KernelIdeal.Skeleton
import proofs.«181349_j1580547973475_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Score
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first argument's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second argument's staging buffer holds its block at every point: where the block is not fetched its index
    has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S8x256x1024 := Rect.unit (s := S8x256x1024) ![0, 0, 0] S8x256x1024.size inb_S8x256x1024_S8x256x1024_0_0_0
abbrev r0_1 : Rect S8x1x1024 := Rect.unit (s := S8x1x1024) ![0, 0, 0] S8x1x1024.size inb_S8x1x1024_S8x1x1024_0_0_0
abbrev r0_2 : Rect S8x256x1 := Rect.unit (s := S8x256x1) ![0, 0, 0] S8x256x1.size inb_S8x256x1_S8x256x1_0_0_0

/-- What the body leaves in the scores' staging buffer, from the two input blocks: its one store. -/
def out0_2 (x0 : Vec F S8x256x1024 .f32) (x1 : Vec F S8x1x1024 .f32) : Vec F S8x256x1 .f32 :=
  View.canon [⟨r0_2, k0_pay1 (View.ld x0 r0_0) (View.ld x1 r0_1)⟩]

/-- The one store is the whole block, so it covers it. -/
theorem cover0_2 (p0 : Vec F S8x256x1 .f32) (y : S8x256x1.Idx) :
    ∃ pc ∈ ([⟨r0_2, p0⟩] : List (View.Piece (Elt F) S8x256x1 .f32)), y ∈ pc.1.set :=
  View.cover_of_tiled [⟨r0_2, p0⟩] S8x256x1.size (by rfl) y

/-! ## The body's triple -/

set_option maxHeartbeats 1000000 in
/-- On whole staging buffers, the two inputs' at contents `x0`, `x1` and the output's at anything, the body runs
    to the continuation with the inputs' as they were and the output's at `out0_2 x0 x1`. -/
theorem sound_kernel0 (c : Dev nD) (E : Set ℕ) (i : grid0.Coords)
    (arg2 : Memref sig .tc .vmem S8x256x1024 .f32) (harg2 : arg2.IsWhole)
    (arg3 : Memref sig .tc .vmem S8x1x1024 .f32) (harg3 : arg3.IsWhole)
    (arg4 : Memref sig .tc .vmem S8x256x1 .f32) (harg4 : arg4.IsWhole)
    (x0 : Vec F S8x256x1024 .f32) (x1 : Vec F S8x1x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__score_kernel i arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at `out0_2` of the two blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Score

end Cert.KernelIdeal.Hand

end
-- ==== Proof.KIReg1.lean ====
/-
  The context pass (the second kernel region), at any float instance and at a PARAMETER `V`, the contents of the
  core's buffers when the region is entered. The grid has 4 × 16 points, the time tile `ti` the minor coordinate. At
  point (bi, ti) the body is handed rows 8·bi … 8·bi+7, times 256·ti … 256·ti+255 of the first argument and the same
  rows and times of the weights. It keeps an 8 × 1 × 1024 accumulator in a scratch buffer of its own ACROSS points:
  at ti = 0 it first stores zero into it; at every point it adds the tile's weighted sum of rows to it; at ti = 15 it
  copies it into the output's staging buffer, which is written back there and only there. So the body has three
  control cases over the grid — first tile (reset, add), middle tile (add), last tile (add, copy out) — and what the
  scratch holds after point `n` is defined by recursion on `n` (`outsAt1`): a first tile starts afresh, any other
  tile from what the point before left. The region's invariant carries the scratch at exactly those contents.
-/
import proofs.«181349_j1580547973475_1_alg».proof.Proof.Gen.KernelIdeal.Launch
import proofs.«181349_j1580547973475_1_alg».proof.Proof.Gen.KernelIdeal.Skeleton
import proofs.«181349_j1580547973475_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first time tile": the reset's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last time tile": the copy-out's condition. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle: everywhere but at the last tile, where it is stored and written back -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S8x1x1024 .f32 := (Memref.whole cc1_stg2_0 : Memref sig .tc .vmem S8x1x1024 .f32).view
abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S8x1x1024 .f32 := Memref.whole cc1_scratch0
abbrev VS1_0 : View sig .tc .vmem S8x1x1024 .f32 := scM1_0.view

/-- What the region is handed besides its windows: the other call's six staging buffers at anything, the
    accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case: the pieces each buffer ends with are found by the run itself -/

set_option maxHeartbeats 2000000 in
/-- FIRST TILE (reset taken, copy-out not taken): the inputs at their blocks, the idle output handed back untouched,
    the accumulator taken at anything and left with the run's pieces written. -/
noncomputable def kernelRun1_A (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) :
    Σ' (L2 : List (View.Piece (Elt F) S8x1x1024 .f32)), { LS0 : List (View.Piece (Elt F) S8x1x1024 .f32) //
      ∀ (xi2 : Vec F S8x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- MIDDLE TILE (neither branch taken): the accumulator taken at what the point before left. -/
noncomputable def kernelRun1_B (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) :
    Σ' (L2 : List (View.Piece (Elt F) S8x1x1024 .f32)), { LS0 : List (View.Piece (Elt F) S8x1x1024 .f32) //
      ∀ (xi2 : Vec F S8x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- LAST TILE (copy-out taken): the output's buffer taken at anything and left with the run's pieces written. -/
noncomputable def kernelRun1_C (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) :
    Σ' (L2 : List (View.Piece (Elt F) S8x1x1024 .f32)), { LS0 : List (View.Piece (Elt F) S8x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨?_, ?_, fun E K => ?run⟩
  case run =>
    simp only [cc1__ctx_kernel_eq_skeleton]; unfold cc1__ctx_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

section Context
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the accumulator -/

def out1_A_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) : Vec F S8x1x1024 .f32 :=
  VO1_2.read (Elt F) (VO1_2.writes (Elt F) VO1_2.junk (kernelRun1_A c i arg2 harg2 arg3 harg3 arg4 harg4 arg5 harg5 hc0 hc1 x0 x1).1)
theorem scover1_A_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) (y : S8x1x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x1x1024.size (by sl_kernel_rfl) y
def sout1_A_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) : Vec F S8x1x1024 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) : Vec F S8x1x1024 .f32 :=
  VO1_2.read (Elt F) (VO1_2.writes (Elt F) VO1_2.junk (kernelRun1_B c i arg2 harg2 arg3 harg3 arg4 harg4 arg5 harg5 hc0 hc1 x0 x1 xs0).1)
theorem scover1_B_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) (y : S8x1x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x1x1024.size (by sl_kernel_rfl) y
def sout1_B_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) : Vec F S8x1x1024 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) (y : S8x1x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x1x1024.size (by sl_kernel_rfl) y
def out1_C_2 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) : Vec F S8x1x1024 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) (y : S8x1x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x1x1024.size (by sl_kernel_rfl) y
def sout1_C_0 (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) : Vec F S8x1x1024 .f32 :=
  VS1_0.read (Elt F) (VS1_0.writes (Elt F) VS1_0.junk (kernelRun1_C c i arg2 harg2 arg3 harg3 arg4 harg4 arg5 harg5 hc0 hc1 x0 x1 xs0).2.1)

/-! ## The accumulation, point by point -/

/-- What the output's staging buffer and the accumulator hold after the body at position `n` (a pair): the case
    the closed forms select at `n`, run on the point's input blocks, a middle or last tile from the accumulator
    the point before left. -/
def outsAt1 (c : Dev nD) : (n : ℕ) → n < cfg1.N → Vec F S8x1x1024 .f32 × Vec F S8x1x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator at what the point before left -/

def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the inputs' buffers hold their blocks;
    the invariant hands the body the accumulator (at what the point before left, or at anything before the very
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨A0, A1, A2, A3, A4, A5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨A0, A1, A2, A3, A4, A5, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS_castSucc V c t, PhiS_pos V c _ _ hz]
        iintro ⟨⟨⟨A0, A1, A2, A3, A4, A5, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨A0, A1, A2, A3, A4, A5, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [A0 A1 A2 A3 A4 A5 HS0 Hg]
        · isplitl [A0 A1 A2 A3 A4 A5 HS0]
          · isplitl [A0]; · iexact A0
            isplitl [A1]; · iexact A1
            isplitl [A2]; · iexact A2
            isplitl [A3]; · iexact A3
            isplitl [A4]; · iexact A4
            isplitl [A5]; · iexact A5
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives that back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨A0, A1, A2, A3, A4, A5, HS0⟩, Hg⟩
  isplitl [A0 A1 A2 A3 A4 A5 HS0]
  · isplitl [A0]; · iexact A0
    isplitl [A1]; · iexact A1
    isplitl [A2]; · iexact A2
    isplitl [A3]; · iexact A3
    isplitl [A4]; · iexact A4
    isplitl [A5]; · iexact A5
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Context

end Cert.KernelIdeal.Hand

end
-- ==== Proof.KIRun.lean ====
/-
  The whole run of the program at any float instance: the score pass, the sixteen host operations of the softmax
  between the passes, the context pass. The contents of the core's unscoped buffers are followed from boundary to
  boundary — at launch (`W0`); after the score pass, whose output array then holds what its write-backs left and
  nothing else has changed (`W1`); after the host operations (`W2`); after the context pass (`W3`) — and every
  weakly fair execution from any memory with zero counters terminates, without a fault, in a state whose every
  unscoped buffer holds `W3`. The two arguments are written by no operation and by neither pass, so they read
  back through the four boundaries as launched.
-/
import proofs.«181349_j1580547973475_1_alg».proof.Proof.KIReg0
import proofs.«181349_j1580547973475_1_alg».proof.Proof.KIReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- After the score pass: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the host operations between the passes. -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- After the context pass. -/
def W3 (c : Dev nD) : Valuation τ sig (Elt F) :=
  Pipeline.withArrays spec1 c (W2 m ρ c) fun w => (dat1 (V2r m ρ) c).arrAt w cfg1.N
theorem W3_arr (c : Dev nD) (w : Fin cfg1.W) :
    W3 m ρ c (Proc.devRef .tc (Pipeline.arrRef spec1 w)) = (dat1 (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3r : (c : Dev nD) → (b : Ref sig .tc) → Buf (Elt F) ((c : Thread nD τ).loc b) := fun c b => W3 m ρ c b
theorem hF1 (c : Dev nD) (w : Fin cfg1.W) : (dat1 (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-- No host operation between the passes allocates a buffer. -/
theorem hostOps1_fresh' : (hostOps1 : List (HloOp τ sig (Elt F))).Forall fun op => op.fresh = ∅ := by
  simp only [List.Forall]; repeat' constructor

/-- No host operation between the passes writes the first argument, -/
theorem W2_keeps_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- nor the second. -/
theorem W2_keeps_arg1 (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2r m ρ) c).arrAt_in 0 rfl _).trans (A_eq1 (V2r m ρ) c 0))
    _ = W1 m ρ c (Proc.devRef .tc main_arg0) := W2_keeps_arg0 m ρ c
    _ = W0 m ρ c (Proc.devRef .tc main_arg0) := (W1_arr m ρ c 0).trans (((dat0 (V0r m ρ) c).arrAt_in 0 rfl _).trans (A_eq0 (V0r m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_keeps_arg1 m ρ c
    _ = W0 m ρ c (Proc.devRef .tc main_arg1) := (W1_arr m ρ c 1).trans (((dat0 (V0r m ρ) c).arrAt_in 1 rfl _).trans (A_eq0 (V0r m ρ) c 1))
    _ = m ((c : Thread nD τ).loc main_arg1) := rfl

/-! ## The proof data family and the thread state -/

abbrev adm : (p : Fin 2) → (pcfgs (F := F) p).Adm := fun p => (cfgs p).toPCfg_adm
/-- Each pass's proof data at its own entry contents: a literal match on the pass. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The passes as segments -/

set_option backward.isDefEq.respectTransparency.types false in
/-- The score pass over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The context pass over the thread state: entered from every unscoped buffer at `W2`, left at `W3`. Its invariant
    starts as what the launch hands a region and ends by giving that back, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at `W3`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

/-- The frame claim's post: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W3_main_arg0 m ρ c),
    (h c main_arg1 (by decide)).trans (W3_main_arg1 m ρ c)⟩) (run_all m ρ)

end Cert.KernelIdeal.Hand

end
-- ==== Proof.RefRead.lean ====
import proofs.«181349_j1580547973475_1_alg».proof.Proof.Gen.ReferenceIdeal.Read
import Idealize.ShloMosaic.Lib.ValueIdx

/-!
The reference program read at an index, at the ideal instance: a score is the sum over the feature axis of the
product of the two arguments' entries; the context is the sum over the time axis of an entry times its softmax
weight; and the softmax chain between them is one function of the scores.
-/

noncomputable section

namespace Cert.ReferenceIdeal.RefRead

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open scoped BigOperators

/-- The softmax chain of the printed program (its operations %3 to %13, with their literal words) as ONE function of
    the scores, at any float instance: subtract the row maximum (started from the word of minus infinity and joined
    once more with it), exponentiate, and divide by the row sum of the exponentials (started from the zero word). -/
def smax {F : FTy → Type} [FloatOps F] (pax : (⟨S32x4096, .f32⟩ : BufTy).Contents (Elt F)) : (⟨S32x4096, .f32⟩ : BufTy).Contents (Elt F) :=
  Host.divf
    (Host.exp (subf pax (broadcastInDim S32x4096 ![0, 1] bcast_S32x1_S32x4096_0_1 (broadcastInDim S32x1 ![0] bcast_S32_S32x1_0 (maximumf (broadcastInDim S32 ![] bcast_S_S32 (constant S_ .f32 0xFF800000#32)) (Host.reduce FloatOps.maximumf pax (constant S_ .f32 0xFF800000#32) reducesTo_S32x4096_S32_d1 h_S_))))))
    (broadcastInDim S32x4096 ![0, 1] bcast_S32x1_S32x4096_0_1 (broadcastInDim S32x1 ![0] bcast_S32_S32x1_0 (Host.reduceAdd (Host.exp (subf pax (broadcastInDim S32x4096 ![0, 1] bcast_S32x1_S32x4096_0_1 (broadcastInDim S32x1 ![0] bcast_S32_S32x1_0 (maximumf (broadcastInDim S32 ![] bcast_S_S32 (constant S_ .f32 0xFF800000#32)) (Host.reduce FloatOps.maximumf pax (constant S_ .f32 0xFF800000#32) reducesTo_S32x4096_S32_d1 h_S_)))))) (constant S_ .f32 0x00000000#32) reducesTo_S32x4096_S32_d1 h_S_)))

/-- The reference's weights are that chain applied to its scores. -/
theorem weights_eq {F : FTy → Type} [FloatOps F] (x0 : (⟨S32x4096x1024, .f32⟩ : BufTy).Contents (Elt F)) (x1 : (⟨S32x1x1024, .f32⟩ : BufTy).Contents (Elt F)) :
    val_main_v13 (F := F) x0 x1 = smax (val_main_v2 (F := F) x0 x1) := rfl

/-- A score of the reference: the sum over the feature axis of the product of the two arguments' entries. The sum
    starts from the zero word, which is the real number zero. -/
theorem scores_apply (x0 : (⟨S32x4096x1024, .f32⟩ : BufTy).Contents (Elt Ideal)) (x1 : (⟨S32x1x1024, .f32⟩ : BufTy).Contents (Elt Ideal)) (b : Fin 32) (t : Fin 4096) :
    val_main_v2 (F := Ideal) x0 x1 (ix2 b t) = ∑ d : Fin 1024, x0 (ix3 b t d) * x1 (ix3 b (0 : Fin 1) d) := by
  have hz : val_main_cst (F := Ideal) (Shape.Idx.first h_S_) = 0 := Ideal.ofBits_zero_f32
  refine (val_main_v2_apply x0 x1 (ix2 b t)).trans ?_
  rw [hz, zero_add]
  refine Finset.sum_congr rfl fun d _ => ?_
  have h1 : idx_main_v2 (ix2 b t) d = ix3 b t d :=
    funext fun a => Fin.ext (by match a with | ⟨0, _⟩ => rfl | ⟨1, _⟩ => rfl | ⟨2, _⟩ => rfl)
  have h2 : idx_main_v0 (ix3 b t d) = ix3 b (0 : Fin 1) d :=
    funext fun a => Fin.ext (by match a with | ⟨0, _⟩ => rfl | ⟨1, _⟩ => rfl | ⟨2, _⟩ => rfl)
  rw [h1, val_main_v1_apply, val_main_v0_apply, h2]
  rfl

/-- The reference's context: the sum over the time axis of an entry times its softmax weight. The sum starts from
    the zero word, and the re-laying to a unit middle axis reads the same entry. -/
theorem ctx_apply (x0 : (⟨S32x4096x1024, .f32⟩ : BufTy).Contents (Elt Ideal)) (x1 : (⟨S32x1x1024, .f32⟩ : BufTy).Contents (Elt Ideal)) (b : Fin 32) (d : Fin 1024) :
    val_main_v18 (F := Ideal) x0 x1 (ix3 b (0 : Fin 1) d) = ∑ t : Fin 4096, x0 (ix3 b t d) * val_main_v13 (F := Ideal) x0 x1 (ix2 b t) := by
  have hz : val_main_cst_3 (F := Ideal) (Shape.Idx.first h_S_) = 0 := Ideal.ofBits_zero_f32
  refine (val_main_v18_apply x0 x1 (ix3 b (0 : Fin 1) d)).trans ?_
  refine (val_main_v17_apply x0 x1 _).trans ?_
  rw [hz, zero_add]
  refine Finset.sum_congr rfl fun t _ => ?_
  have h1 : idx_main_v17 (idx_main_v18 (ix3 b (0 : Fin 1) d)) t = ix3 b t d :=
    funext fun a => Fin.ext (by match a with | ⟨0, _⟩ => rfl | ⟨1, _⟩ => rfl | ⟨2, _⟩ => rfl)
  have h2 : idx_main_v14 (idx_main_v15 (ix3 b t d)) = ix2 b t :=
    funext fun a => Fin.ext (by match a with | ⟨0, _⟩ => rfl | ⟨1, _⟩ => rfl)
  rw [h1, val_main_v16_apply, val_main_v15_apply, val_main_v14_apply, h2]
  rfl

end Cert.ReferenceIdeal.RefRead

end
-- ==== Proof.PayIdeal.lean ====
import proofs.«181349_j1580547973475_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Cert.KernelIdeal Cert.KernelIdeal.Gen Idealize.ShloMosaic Idealize.ShloMosaic.ValueIdx

/-- A score: the contraction of a row of the first operand with the batch's one row of the second over the feature axis. -/
theorem score_apply (eh : Vec Ideal S8x256x1024 .f32) (dh : Vec Ideal S8x1x1024 .f32) (p : Fin 8) (q : Fin 256) :
    k0_pay1 (F := Ideal) eh dh (ix3 p q (0 : Fin 1)) = ∑ d : Fin 1024, eh (ix3 p q d) * dh (ix3 p (0 : Fin 1) d) := by
  -- The format changes are the identity and the accumulator is zero, so the payload at an index is the
  -- sum over the contraction index of the operands' products.
  refine (Ideal.matmul_constant_zero_apply dot_S8x256x1024_S8x1x1024_S8x256x1_2_2_1_1_0_0 none _ _ _).trans ?_
  -- The contraction index has one axis of extent 1024: re-index the sum by its coordinate.
  refine (Equiv.sum_comp (contrEquiv1 dot_S8x256x1024_S8x1x1024_S8x256x1_2_2_1_1_0_0 1024 rfl rfl).symm _).symm.trans ?_
  refine Finset.sum_congr rfl fun d _ => ?_
  -- The left operand is read at (p, q, d): batch and free coordinates from the output index, the last from the contraction.
  have hl : dot_S8x256x1024_S8x1x1024_S8x256x1_2_2_1_1_0_0.lhsIdx (ix3 p q (0 : Fin 1))
      ((contrEquiv1 dot_S8x256x1024_S8x1x1024_S8x256x1_2_2_1_1_0_0 1024 rfl rfl).symm d) = ix3 p q d := by
    funext a
    match a with
    | ⟨0, _⟩ => exact Fin.ext rfl
    | ⟨1, _⟩ => exact Fin.ext rfl
    | ⟨2, _⟩ => exact Fin.ext rfl
  -- The right operand is read at (p, 0, d).
  have hr : dot_S8x256x1024_S8x1x1024_S8x256x1_2_2_1_1_0_0.rhsIdx (ix3 p q (0 : Fin 1))
      ((contrEquiv1 dot_S8x256x1024_S8x1x1024_S8x256x1_2_2_1_1_0_0 1024 rfl rfl).symm d) = ix3 p (0 : Fin 1) d := by
    funext a
    match a with
    | ⟨0, _⟩ => exact Fin.ext rfl
    | ⟨1, _⟩ => exact Fin.ext rfl
    | ⟨2, _⟩ => exact Fin.ext rfl
  exact congrArg₂ (· * ·) (congrArg eh hl) (congrArg dh hr)

/-- The accumulator's reset value is zero at every index. -/
theorem reset_apply (j : S8x1x1024.Idx) : k1_pay1 (F := Ideal) j = 0 := by
  -- A cast to the same shape changes nothing, a broadcast scalar reads that scalar at every index,
  -- and the scalar is the value of the all-zero bit pattern, which is zero.
  unfold k1_pay1
  refine (congrFun (shapeCast_self _ _) j).trans ?_
  show Ideal.ofBits .f32 0x00000000#32 = 0
  exact Ideal.ofBits_zero_f32

/-- One accumulation step: the old value plus the weighted sum of the tile's 256 rows. -/
theorem step_apply (eh : Vec Ideal S8x256x1024 .f32) (w : Vec Ideal S8x1x256 .f32) (acc : Vec Ideal S8x1x1024 .f32)
    (p : Fin 8) (d : Fin 1024) :
    k1_pay2 (F := Ideal) eh w acc (ix3 p (0 : Fin 1) d)
      = acc (ix3 p (0 : Fin 1) d) + ∑ q : Fin 256, w (ix3 p (0 : Fin 1) q) * eh (ix3 p q d) := by
  -- The outer cast to the same shape changes nothing; what it casts is the old value plus the product term.
  unfold k1_pay2
  refine (congrFun (shapeCast_self _ _) (ix3 p (0 : Fin 1) d)).trans ?_
  show acc (ix3 p (0 : Fin 1) d) + _ = acc (ix3 p (0 : Fin 1) d) + _
  refine congrArg (acc (ix3 p (0 : Fin 1) d) + ·) ?_
  -- The product term accumulates into zero: it is the sum over the contraction index of the operands' products.
  refine (Ideal.matmul_constant_zero_apply dot_S8x1x256_S8x256x1024_S8x1x1024_2_1_1_2_0_0 none _ _ _).trans ?_
  -- The contraction index has one axis of extent 256: re-index the sum by its coordinate.
  refine (Equiv.sum_comp (contrEquiv1 dot_S8x1x256_S8x256x1024_S8x1x1024_2_1_1_2_0_0 256 rfl rfl).symm _).symm.trans ?_
  refine Finset.sum_congr rfl fun q _ => ?_
  -- The weights are read at (p, 0, q): batch and free coordinates from the output index, the last from the contraction.
  have hl : dot_S8x1x256_S8x256x1024_S8x1x1024_2_1_1_2_0_0.lhsIdx (ix3 p (0 : Fin 1) d)
      ((contrEquiv1 dot_S8x1x256_S8x256x1024_S8x1x1024_2_1_1_2_0_0 256 rfl rfl).symm q) = ix3 p (0 : Fin 1) q := by
    funext a
    match a with
    | ⟨0, _⟩ => exact Fin.ext rfl
    | ⟨1, _⟩ => exact Fin.ext rfl
    | ⟨2, _⟩ => exact Fin.ext rfl
  -- The tile is read at (p, q, d): the middle coordinate from the contraction, the last from the output index.
  have hr : dot_S8x1x256_S8x256x1024_S8x1x1024_2_1_1_2_0_0.rhsIdx (ix3 p (0 : Fin 1) d)
      ((contrEquiv1 dot_S8x1x256_S8x256x1024_S8x1x1024_2_1_1_2_0_0 256 rfl rfl).symm q) = ix3 p q d := by
    funext a
    match a with
    | ⟨0, _⟩ => exact Fin.ext rfl
    | ⟨1, _⟩ => exact Fin.ext rfl
    | ⟨2, _⟩ => exact Fin.ext rfl
  -- The weights pass through a same-shape cast and a format change, both the identity; the tile through a format change.
  exact congrArg₂ (· * ·)
    ((congrFun (shapeCast_self w shapeCasts_S8x1x256_S8x1x256) _).trans (congrArg w hl)) (congrArg eh hr)

/-- A sum over 4096 consecutive positions is the sum of its 16 tiles of 256. -/
theorem sum_tiles (f : ℕ → EReal) :
    ∑ t : Fin 4096, f t.val = ∑ k : Fin 16, ∑ q : Fin 256, f (k.val * 256 + q.val) := by
  -- Re-index the positions 0..4095 by pairs (tile, offset): t = offset + 256 * tile.
  have h := (Equiv.sum_comp (finProdFinEquiv (m := 16) (n := 256)) (fun t : Fin (16 * 256) => f t.val)).symm
  refine h.trans ?_
  rw [Fintype.sum_prod_type]
  refine Finset.sum_congr rfl (fun k _ => Finset.sum_congr rfl (fun q _ => ?_))
  congr 1
  simp [finProdFinEquiv, Nat.add_comm, Nat.mul_comm]

/-- Steps from zero leave the sum of the increments. -/
theorem fold_steps (s a : ℕ → EReal) (h0 : a 0 = 0 + s 0) (hs : ∀ n, a (n + 1) = a n + s (n + 1))
    (n : ℕ) : a n = ∑ k ∈ Finset.range (n + 1), s k := by
  induction n with
  | zero => simpa using h0
  | succ n ih => rw [hs n, ih, Finset.sum_range_succ _ (n + 1)]

end Cert.KernelIdeal.PayIdeal

end
-- ==== Proof.At3.lean ====
/-
  Reading an array of three axes at natural-number coordinates. The kernel's tiles are addressed by a tile number
  and a position inside the tile; with coordinates in ℕ the tile arithmetic (row 8·bi + p, time 256·ti + q) is
  plain arithmetic, and a read outside the extents is zero by convention (it never occurs in a statement's use).
-/
import Idealize.ShloMosaic.Lib.ValueIdx
import Idealize.ShloMosaic.PureOps.Ideal

noncomputable section

namespace Cert.AttnIdx

open Idealize.ShloMosaic Idealize.ShloMosaic.ValueIdx

/-- The entry at coordinates `(a, b, c)`, zero outside the extents. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- Inside the extents it is the entry. -/
theorem at3_ix3 {n0 n1 n2 : ℕ} (x : (⟨3, ![n0, n1, n2]⟩ : Shape).Idx → EReal) (a : Fin n0) (b : Fin n1) (c : Fin n2) :
    at3 x a.val b.val c.val = x (ix3 a b c) := by
  unfold at3; rw [dif_pos ⟨a.isLt, b.isLt, c.isLt⟩]

/-- The same with the bounds given separately. -/
theorem at3_of_lt {n0 n1 n2 : ℕ} (x : (⟨3, ![n0, n1, n2]⟩ : Shape).Idx → EReal) {a b c : ℕ} (ha : a < n0) (hb : b < n1) (hc : c < n2) :
    at3 x a b c = x (ix3 ⟨a, ha⟩ ⟨b, hb⟩ ⟨c, hc⟩) := by
  unfold at3; rw [dif_pos ⟨ha, hb, hc⟩]

end Cert.AttnIdx

end
-- ==== Proof.ScoreValue.lean ====
/-
  The score pass's output array, as one function of the two arrays the pass finds. The grid has 4 × 16 points,
  point t = 16·bi + ti; at it the body is handed rows 8·bi … 8·bi+7, times 256·ti … 256·ti+255 of the first
  argument, the same eight rows of the second argument's one time row, and writes the 8 × 256 × 1 block of their
  contractions over the 1024 features. Each block written back is the restriction of ONE function of the two
  arrays to that block, and the 64 blocks tile the output, so after the pass the output is that function.
-/
import proofs.«181349_j1580547973475_1_alg».proof.Proof.KIReg0
import proofs.«181349_j1580547973475_1_alg».proof.Proof.PayIdeal
import proofs.«181349_j1580547973475_1_alg».proof.Proof.At3
import Idealize.ShloMosaic.Lib.Pipeline.Value

noncomputable section

namespace Cert.KernelIdeal.ScoreValue

open Cert.KernelIdeal Cert.KernelIdeal.Gen Cert.KernelIdeal.Hand Cert.AttnIdx
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three zero offsets, as the constant function. -/
theorem hz3 : (![0, 0, 0] : Fin 3 → Nat) = fun _ => 0 := funext fun a => by fin_cases a <;> rfl

/-- Where each window's block sits at grid point `t = 16·bi + ti`: the first argument's and the scores' at block
    (bi, ti, 0), the second argument's at block (bi, 0, 0). -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0 :=
  (by decide +kernel : ∀ t : Fin grid0.N, _)

/-- The grid has 64 points. -/
theorem point_lt (t : Fin cfg0.N) : t.val < 64 := lt_of_lt_of_eq t.isLt N_0

/-- The score at natural-number coordinates: row `a`, time `b`. -/
def scoreAt (c : Dev nD) (a b : ℕ) : EReal :=
  ∑ d : Fin 1024, at3 (V c main_arg0) a b d.val * at3 (V c main_arg1) a 0 d.val

/-- The score array as one function of the two arguments. -/
def G (c : Dev nD) : S32x4096x1.Idx → EReal := fun i => scoreAt V c (i 0).val (i 1).val

/-- The payload at any index of the score block, the index's first two coordinates named. -/
theorem pay_at (x0 : Vec Ideal S8x256x1024 .f32) (x1 : Vec Ideal S8x1x1024 .f32) (y : S8x256x1.Idx)
    (p : Fin 8) (q : Fin 256) (hp : (y 0).val = p.val) (hq : (y 1).val = q.val) :
    k0_pay1 (F := Ideal) x0 x1 y = ∑ d : Fin 1024, x0 (ix3 p q d) * x1 (ix3 p (0 : Fin 1) d) := by
  have hy : y = ix3 p q (0 : Fin 1) := by
    funext a
    match a with
    | ⟨0, _⟩ => exact Fin.ext hp
    | ⟨1, _⟩ => exact Fin.ext hq
    | ⟨2, _⟩ =>
      apply Fin.ext
      have h : (y 2).val < 1 := (y 2).isLt
      show (y 2).val = 0
      omega
  rw [hy]
  exact PayIdeal.score_apply x0 x1 p q

/-- The first argument's block at point `t`, read at natural coordinates: rows 8·bi …, times 256·ti …, all features. -/
theorem blk0_read (c : Dev nD) (t : Fin cfg0.N) (p : Fin 8) (q : Fin 256) (d : Fin 1024) :
    (iblk0 (F := Ideal) V c 0 t : Vec Ideal S8x256x1024 .f32) (ix3 p q d)
      = at3 (V c main_arg0) (8 * (t.val / 16) + p.val) (256 * (t.val % 16) + q.val) d.val := by
  obtain ⟨e00, e01, e02, -⟩ := idx_facts t
  have ht := point_lt t
  have hp := p.isLt
  have hq := q.isLt
  have hd := d.isLt
  rw [at3_of_lt (V c main_arg0) (by omega) (by omega) hd]
  show V c main_arg0 (((cfg0.win 0).blk t).view.emb (ix3 p q d)) = _
  refine congrArg (V c main_arg0) ?_
  funext a
  apply Fin.ext
  match a with
  | ⟨0, _⟩ => show win0_0.index t (0 : Fin 3) * 8 + 1 * p.val = 8 * (t.val / 16) + p.val; omega
  | ⟨1, _⟩ => show win0_0.index t (1 : Fin 3) * 256 + 1 * q.val = 256 * (t.val % 16) + q.val; omega
  | ⟨2, _⟩ => show win0_0.index t (2 : Fin 3) * 1024 + 1 * d.val = d.val; omega

/-- The second argument's block at point `t`, read at natural coordinates: rows 8·bi …, its one time row, all features. -/
theorem blk1_read (c : Dev nD) (t : Fin cfg0.N) (p : Fin 8) (d : Fin 1024) :
    (iblk0 (F := Ideal) V c 1 t : Vec Ideal S8x1x1024 .f32) (ix3 p (0 : Fin 1) d)
      = at3 (V c main_arg1) (8 * (t.val / 16) + p.val) 0 d.val := by
  obtain ⟨-, -, -, e10, e11, e12, -⟩ := idx_facts t
  have ht := point_lt t
  have hp := p.isLt
  have hd := d.isLt
  rw [at3_of_lt (V c main_arg1) (by omega) (by omega) hd]
  show V c main_arg1 (((cfg0.win 1).blk t).view.emb (ix3 p (0 : Fin 1) d)) = _
  refine congrArg (V c main_arg1) ?_
  funext a
  apply Fin.ext
  match a with
  | ⟨0, _⟩ => show win0_1.index t (0 : Fin 3) * 8 + 1 * p.val = 8 * (t.val / 16) + p.val; omega
  | ⟨1, _⟩ => show win0_1.index t (1 : Fin 3) * 1 + 1 * 0 = 0; omega
  | ⟨2, _⟩ => show win0_1.index t (2 : Fin 3) * 1024 + 1 * d.val = d.val; omega

/-- What point `t` writes back is block `t` of the score array. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz3]
  simp only [View.ld_unit_zero (S := S8x256x1024) hz3, View.ld_unit_zero (S := S8x1x1024) hz3]
  funext j
  obtain ⟨-, -, -, -, -, -, e20, e21, e22⟩ := idx_facts t
  have hp : (j 0).val < 8 := (j 0).isLt
  have hq : (j 1).val < 256 := (j 1).isLt
  show k0_pay1 (F := Ideal) (iblk0 V c 0 t) (iblk0 V c 1 t) ((win0 2).xinj (grid0.coords t) j)
      = scoreAt V c ((((cfg0.win 2).blk t).view.emb j) 0).val ((((cfg0.win 2).blk t).view.emb j) 1).val
  -- the block's element (p, q, 0) sits in the array at row 8·bi + p, time 256·ti + q
  have h0 : ((((cfg0.win 2).blk t).view.emb j) 0).val = 8 * (t.val / 16) + (j 0).val := by
    show win0_2.index t (0 : Fin 3) * 8 + 1 * (j 0).val = _; omega
  have h1 : ((((cfg0.win 2).blk t).view.emb j) 1).val = 256 * (t.val % 16) + (j 1).val := by
    show win0_2.index t (1 : Fin 3) * 256 + 1 * (j 1).val = _; omega
  rw [h0, h1]
  refine (pay_at _ _ _ ⟨(j 0).val, hp⟩ ⟨(j 1).val, hq⟩ rfl rfl).trans ?_
  unfold scoreAt
  refine Finset.sum_congr rfl fun d _ => ?_
  exact congrArg₂ (· * ·) (blk0_read V c t ⟨(j 0).val, hp⟩ ⟨(j 1).val, hq⟩ d) (blk1_read V c t ⟨(j 0).val, hp⟩ d)

/-- An index of the score array is in point `t`'s block iff each coordinate is in the block's range on its axis. -/
theorem mem_blk (t : Fin cfg0.N) (i : S32x4096x1.Idx) :
    i ∈ ((cfg0.win 2).blk t).view.set
      ↔ ∀ a : Fin 3, win0_2.index t a * S8x256x1.size a ≤ (i a).val ∧ (i a).val < win0_2.index t a * S8x256x1.size a + S8x256x1.size a := by
  show i ∈ ((View.whole main_v0).slice (win0_2.rect t)).set ↔ _
  rw [View.set_slice_whole, Rect.mem_set_unit]
  exact Iff.rfl

/-- Every index of the score array is in some point's block: row `b`, time `s` is in the block of point 16·(b/8) + s/256. -/
theorem cover (i : S32x4096x1.Idx) :
    ∃ t : Fin cfg0.N, (cfg0.win 2).flush t = true ∧ i ∈ ((cfg0.win 2).blk t).view.set := by
  have hi0 : (i 0).val < 32 := (i 0).isLt
  have hi1 : (i 1).val < 4096 := (i 1).isLt
  have hi2 : (i 2).val < 1 := (i 2).isLt
  have hN : 16 * ((i 0).val / 8) + (i 1).val / 256 < cfg0.N := by
    show _ < grid0.N; rw [N_0]; omega
  refine ⟨⟨16 * ((i 0).val / 8) + (i 1).val / 256, hN⟩, flush0_2 _, ?_⟩
  obtain ⟨-, -, -, -, -, -, e20, e21, e22⟩ := idx_facts ⟨16 * ((i 0).val / 8) + (i 1).val / 256, hN⟩
  rw [mem_blk]
  intro a
  match a with
  | ⟨0, _⟩ =>
    show win0_2.index _ (0 : Fin 3) * 8 ≤ (i 0).val ∧ (i 0).val < win0_2.index _ (0 : Fin 3) * 8 + 8
    rw [e20]; show (16 * ((i 0).val / 8) + (i 1).val / 256) / 16 * 8 ≤ _ ∧ _ < (16 * ((i 0).val / 8) + (i 1).val / 256) / 16 * 8 + 8; omega
  | ⟨1, _⟩ =>
    show win0_2.index _ (1 : Fin 3) * 256 ≤ (i 1).val ∧ (i 1).val < win0_2.index _ (1 : Fin 3) * 256 + 256
    rw [e21]; show (16 * ((i 0).val / 8) + (i 1).val / 256) % 16 * 256 ≤ _ ∧ _ < (16 * ((i 0).val / 8) + (i 1).val / 256) % 16 * 256 + 256; omega
  | ⟨2, _⟩ =>
    show win0_2.index _ (2 : Fin 3) * 1 ≤ (i 2).val ∧ (i 2).val < win0_2.index _ (2 : Fin 3) * 1 + 1
    rw [e22]; omega

/-- After the score pass its output array holds, at (b, t, 0), the contraction over the feature axis of row (b, t) of the first argument with row (b, 0) of the second. -/
theorem score_final (c : Dev nD) :
    (dat0 (F := Ideal) V c).arrAt 2 cfg0.N
      = fun i => ∑ d : Fin 1024, at3 (V c main_arg0) (i 0).val (i 1).val d.val * at3 (V c main_arg1) (i 0).val 0 d.val :=
  (dat0 (F := Ideal) V c).arrAt_eq_of_cover 2 (G V c) (fun t _ => flushed_eq V c t) (cover)

end Cert.KernelIdeal.ScoreValue

end
-- ==== Proof.AccValue.lean ====
import proofs.«181349_j1580547973475_1_alg».proof.Proof.KIReg1
import proofs.«181349_j1580547973475_1_alg».proof.Proof.PayIdeal
import proofs.«181349_j1580547973475_1_alg».proof.Proof.At3
import Idealize.ShloMosaic.Lib.Pipeline.Value
import Idealize.ShloMosaic.Lib.Tactic

/-!
The context pass read as values at the ideal instance: the blocks its windows hand the body, what each control case
leaves in the accumulator, the accumulator after any point as a partial sum over time tiles, and the output array
after the pass as the full sum over time of weight times entry.
-/

noncomputable section

namespace Cert.KernelIdeal.AccValue

open Cert.KernelIdeal Cert.KernelIdeal.Gen Cert.KernelIdeal.Hand Cert.KernelIdeal.PayIdeal Cert.AttnIdx
open Idealize.ShloMosaic Idealize.ShloMosaic.TcCoe Idealize.ShloMosaic.ValueIdx Idealize.SL.Sem
open Idealize.ShloMosaic.Pipeline (Dat)
open scoped BigOperators

/-! ## The windows' block indices, decided over the grid -/

/-- The first argument's window at point t is block (t / 16, t % 16, 0). -/
theorem idx1_0 : ∀ t : Fin cfg1.N, win1_0.index t (0 : Fin 3) = t.val / 16 ∧ win1_0.index t (1 : Fin 3) = t.val % 16 ∧ win1_0.index t (2 : Fin 3) = 0 :=
  (by decide +kernel : ∀ t : Fin grid1.N, win1_0.index t (0 : Fin 3) = t.val / 16 ∧ win1_0.index t (1 : Fin 3) = t.val % 16 ∧ win1_0.index t (2 : Fin 3) = 0)

/-- The weights' window at point t is block (t / 16, 0, t % 16). -/
theorem idx1_1 : ∀ t : Fin cfg1.N, win1_1.index t (0 : Fin 3) = t.val / 16 ∧ win1_1.index t (1 : Fin 3) = 0 ∧ win1_1.index t (2 : Fin 3) = t.val % 16 :=
  (by decide +kernel : ∀ t : Fin grid1.N, win1_1.index t (0 : Fin 3) = t.val / 16 ∧ win1_1.index t (1 : Fin 3) = 0 ∧ win1_1.index t (2 : Fin 3) = t.val % 16)

/-- The output's window at point t is block (t / 16, 0, 0). -/
theorem idx1_2 : ∀ t : Fin cfg1.N, win1_2.index t (0 : Fin 3) = t.val / 16 ∧ win1_2.index t (1 : Fin 3) = 0 ∧ win1_2.index t (2 : Fin 3) = 0 :=
  (by decide +kernel : ∀ t : Fin grid1.N, win1_2.index t (0 : Fin 3) = t.val / 16 ∧ win1_2.index t (1 : Fin 3) = 0 ∧ win1_2.index t (2 : Fin 3) = 0)

section Blocks
variable (V : (c : Dev nD) → (b : Ref sig .tc) → Buf (Elt Ideal) ((c : Thread nD τ).loc b))

/-- The first argument's block at a point, at natural coordinates. -/
theorem blk_eh (c : Dev nD) (t : Fin cfg1.N) (p : Fin 8) (q : Fin 256) (d : Fin 1024) :
    (iblk1 (F := Ideal) V c 0 t : Vec Ideal S8x256x1024 .f32) (ix3 p q d) = at3 (V c main_arg0) (8 * (t.val / 16) + p.val) (256 * (t.val % 16) + q.val) d.val := by
  obtain ⟨e0, e1, e2⟩ := idx1_0 t
  have hN : t.val < 64 := lt_of_lt_of_eq t.isLt (show cfg1.N = 64 from N_1)
  have hp := p.isLt; have hq := q.isLt; have hd := d.isLt
  rw [at3_of_lt (V c main_arg0) (a := 8 * (t.val / 16) + p.val) (b := 256 * (t.val % 16) + q.val) (c := d.val) (by omega) (by omega) (by omega)]
  unfold iblk1
  rw [View.read_apply]
  show V c main_arg0 _ = V c main_arg0 _
  congr 1
  funext a
  apply Fin.ext
  match a with
  | ⟨0, _⟩ => show win1_0.index t (0 : Fin 3) * 8 + 1 * p.val = 8 * (t.val / 16) + p.val; rw [e0]; omega
  | ⟨1, _⟩ => show win1_0.index t (1 : Fin 3) * 256 + 1 * q.val = 256 * (t.val % 16) + q.val; rw [e1]; omega
  | ⟨2, _⟩ => show win1_0.index t (2 : Fin 3) * 1024 + 1 * d.val = d.val; rw [e2]; omega

/-- The weights' block at a point. -/
theorem blk_w (c : Dev nD) (t : Fin cfg1.N) (p : Fin 8) (q : Fin 256) :
    (iblk1 (F := Ideal) V c 1 t : Vec Ideal S8x1x256 .f32) (ix3 p (0 : Fin 1) q) = at3 (V c main_v13) (8 * (t.val / 16) + p.val) 0 (256 * (t.val % 16) + q.val) := by
  obtain ⟨e0, e1, e2⟩ := idx1_1 t
  have hN : t.val < 64 := lt_of_lt_of_eq t.isLt (show cfg1.N = 64 from N_1)
  have hp := p.isLt; have hq := q.isLt
  rw [at3_of_lt (V c main_v13) (a := 8 * (t.val / 16) + p.val) (b := 0) (c := 256 * (t.val % 16) + q.val) (by omega) (by omega) (by omega)]
  unfold iblk1
  rw [View.read_apply]
  show V c main_v13 _ = V c main_v13 _
  congr 1
  funext a
  apply Fin.ext
  match a with
  | ⟨0, _⟩ => show win1_1.index t (0 : Fin 3) * 8 + 1 * p.val = 8 * (t.val / 16) + p.val; rw [e0]; omega
  | ⟨1, _⟩ => show win1_1.index t (1 : Fin 3) * 1 + 1 * 0 = 0; rw [e1]
  | ⟨2, _⟩ => show win1_1.index t (2 : Fin 3) * 256 + 1 * q.val = 256 * (t.val % 16) + q.val; rw [e2]; omega

end Blocks

/-! ## What each control case leaves, as the payload of its input blocks -/

theorem hz3 : (![0, 0, 0] : Fin 3 → Nat) = fun _ => 0 := funext fun a => by fin_cases a <;> rfl

section Cases
variable {F : FTy → Type} [FloatOps F]

/-- A middle tile leaves the accumulator it found plus the tile's weighted sum: its one covering store's payload,
    whose loads read the whole buffers. -/
theorem sout_B (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : ¬cond1_1 i)
    (x0 : Vec F S8x256x1024 .f32) (x1 : Vec F S8x1x256 .f32) (xs0 : Vec F S8x1x1024 .f32) :
    sout1_B_0 (F := F) c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz3]
  simp only [View.readAt_eq_ld, harg2.read_unread, harg3.read_unread, harg5.read_unread,
    View.ld_unit_zero (S := S8x256x1024) hz3, View.ld_unit_zero (S := S8x1x256) hz3, View.ld_unit_zero (S := S8x1x1024) hz3]

/-- A first tile stores the reset value, reads it back, and leaves it plus the tile's weighted sum. -/
theorem sout_A (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : cond1_0 i) (hc1 : ¬cond1_1 i)
    (x0 : Vec F S8x256x1024 .f32) (x1 : Vec F S8x1x256 .f32) :
    sout1_A_0 (F := F) c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S8x1x1024) hz3, View.readCov_unit_zero (S := S8x1x1024) _ hz3]
  simp only [View.readAt_eq_ld, harg2.read_unread, harg3.read_unread,
    View.ld_unit_zero (S := S8x256x1024) hz3, View.ld_unit_zero (S := S8x1x256) hz3]

/-- A last tile leaves in the accumulator what a middle tile would. -/
theorem sout_C (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) :
    sout1_C_0 (F := F) c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz3]
  simp only [View.readAt_eq_ld, harg2.read_unread, harg3.read_unread, harg5.read_unread,
    View.ld_unit_zero (S := S8x256x1024) hz3, View.ld_unit_zero (S := S8x1x256) hz3, View.ld_unit_zero (S := S8x1x1024) hz3]

/-- A last tile copies the accumulator it has just updated into the output's buffer. -/
theorem out_C (c : Dev nD) (i : grid1.Coords) (arg2 : Memref sig .tc .vmem S8x256x1024 .f32) (harg2 : arg2.IsWhole) (arg3 : Memref sig .tc .vmem S8x1x256 .f32) (harg3 : arg3.IsWhole) (arg4 : Memref sig .tc .vmem S8x1x1024 .f32) (harg4 : arg4.IsWhole) (arg5 : Memref sig .tc .vmem S8x1x1024 .f32) (harg5 : arg5.IsWhole) (hc0 : ¬cond1_0 i) (hc1 : cond1_1 i)
    (x0 : Vec F S8x256x1024 .f32) (x1 : Vec F S8x1x256 .f32) (xs0 : Vec F S8x1x1024 .f32) :
    out1_C_2 (F := F) c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz3, View.readCov_unit_zero (S := S8x1x1024) _ hz3]
  simp only [View.readAt_eq_ld, harg2.read_unread, harg3.read_unread, harg5.read_unread,
    View.ld_unit_zero (S := S8x256x1024) hz3, View.ld_unit_zero (S := S8x1x256) hz3, View.ld_unit_zero (S := S8x1x1024) hz3]

end Cases

/-! ## The accumulator after a point: a partial sum over time tiles -/

section Acc
variable (V : (c : Dev nD) → (b : Ref sig .tc) → Buf (Elt Ideal) ((c : Thread nD τ).loc b))

/-- The weighted sum of a tile's rows at a point, in the arrays' coordinates: the tile's times are
    (t % 16) · 256 + q, its rows 8 · (t / 16) + p. -/
theorem tile_sum (c : Dev nD) (t : Fin cfg1.N) (p : Fin 8) (d : Fin 1024) (w : Vec Ideal S8x1x256 .f32) (eh : Vec Ideal S8x256x1024 .f32)
    (hw : w = iblk1 (F := Ideal) V c 1 t) (he : eh = iblk1 (F := Ideal) V c 0 t) :
    ∑ q : Fin 256, w (ix3 p (0 : Fin 1) q) * eh (ix3 p q d)
      = ∑ q : Fin 256, at3 (V c main_v13) (8 * (t.val / 16) + p.val) 0 (t.val % 16 * 256 + q.val) * at3 (V c main_arg0) (8 * (t.val / 16) + p.val) (t.val % 16 * 256 + q.val) d.val := by
  refine Finset.sum_congr rfl fun q _ => ?_
  have a : w (ix3 p (0 : Fin 1) q) = at3 (V c main_v13) (8 * (t.val / 16) + p.val) 0 (256 * (t.val % 16) + q.val) :=
    (congrFun hw _).trans (blk_w V c t p q)
  have b : eh (ix3 p q d) = at3 (V c main_arg0) (8 * (t.val / 16) + p.val) (256 * (t.val % 16) + q.val) d.val :=
    (congrFun he _).trans (blk_eh V c t p q d)
  rw [a, b, Nat.mul_comm 256 (t.val % 16)]

/-- At a first tile the accumulator is reset and then holds that tile's weighted sum. -/
theorem acc_first (c : Dev nD) (t : Fin cfg1.N) (h0 : t.val % 16 = 0) (p : Fin 8) (d : Fin 1024) :
    (outsAt1 (F := Ideal) V c t.val t.isLt).2 (ix3 p (0 : Fin 1) d)
      = ∑ q : Fin 256, at3 (V c main_v13) (8 * (t.val / 16) + p.val) 0 (t.val % 16 * 256 + q.val) * at3 (V c main_arg0) (8 * (t.val / 16) + p.val) (t.val % 16 * 256 + q.val) d.val := by
  have h1 : ¬t.val % 16 = 15 := by omega
  have e := congrArg Prod.snd (outsAt1_A V c t h0 h1)
  dsimp only at e
  refine (congrFun e _).trans ?_
  refine (congrFun (sout_A ..) _).trans ?_
  refine (step_apply _ _ _ p d).trans ?_
  rw [reset_apply, zero_add]
  exact tile_sum V c t p d _ _ rfl rfl

/-- At any other tile it holds what the point before left plus that tile's weighted sum. -/
theorem acc_next (c : Dev nD) (t : Fin cfg1.N) (h0 : ¬t.val % 16 = 0) (p : Fin 8) (d : Fin 1024) :
    (outsAt1 (F := Ideal) V c t.val t.isLt).2 (ix3 p (0 : Fin 1) d)
      = (outsAt1 (F := Ideal) V c (t.val - 1) (Nat.lt_of_le_of_lt (Nat.sub_le _ _) t.isLt)).2 (ix3 p (0 : Fin 1) d)
        + ∑ q : Fin 256, at3 (V c main_v13) (8 * (t.val / 16) + p.val) 0 (t.val % 16 * 256 + q.val) * at3 (V c main_arg0) (8 * (t.val / 16) + p.val) (t.val % 16 * 256 + q.val) d.val := by
  by_cases h1 : t.val % 16 = 15
  · have e := congrArg Prod.snd (outsAt1_C V c t h0 h1)
    dsimp only at e
    refine (congrFun e _).trans ?_
    refine (congrFun (sout_C ..) _).trans ?_
    refine (step_apply _ _ _ p d).trans ?_
    exact congrArg (_ + ·) (tile_sum V c t p d _ _ rfl rfl)
  · have e := congrArg Prod.snd (outsAt1_B V c t h0 h1)
    dsimp only at e
    refine (congrFun e _).trans ?_
    refine (congrFun (sout_B ..) _).trans ?_
    refine (step_apply _ _ _ p d).trans ?_
    exact congrArg (_ + ·) (tile_sum V c t p d _ _ rfl rfl)

/-- By induction on the point: the accumulator after point n is the sum over the tiles 0 … n % 16 of batch tile n / 16. -/
theorem acc_aux (c : Dev nD) (p : Fin 8) (d : Fin 1024) : ∀ (n : ℕ) (hn : n < cfg1.N),
    (outsAt1 (F := Ideal) V c n hn).2 (ix3 p (0 : Fin 1) d)
      = ∑ k ∈ Finset.range (n % 16 + 1), ∑ q : Fin 256,
          at3 (V c main_v13) (8 * (n / 16) + p.val) 0 (k * 256 + q.val) * at3 (V c main_arg0) (8 * (n / 16) + p.val) (k * 256 + q.val) d.val
  | 0, hn => by
    refine (acc_first V c ⟨0, hn⟩ rfl p d).trans ?_
    dsimp only
    rw [Finset.sum_range_succ, Finset.sum_range_zero, zero_add]
  | n + 1, hn => by
    by_cases h0 : (n + 1) % 16 = 0
    · refine (acc_first V c ⟨n + 1, hn⟩ h0 p d).trans ?_
      dsimp only
      rw [h0, Finset.sum_range_succ, Finset.sum_range_zero, zero_add]
    · refine (acc_next V c ⟨n + 1, hn⟩ h0 p d).trans ?_
      dsimp only
      have hd : (n + 1) / 16 = n / 16 := by omega
      have hm : (n + 1) % 16 = n % 16 + 1 := by omega
      rw [hd, hm, Finset.sum_range_succ _ (n % 16 + 1)]
      exact congrArg (· + _) (acc_aux c p d n (Nat.lt_of_succ_lt hn))

/-- After point t the accumulator holds the sum, over the tiles 0 … t%16 of the batch tile t/16, of each tile's weighted sum of rows. -/
theorem acc_apply (c : Dev nD) (t : Fin cfg1.N) (p : Fin 8) (d : Fin 1024) :
    (outsAt1 (F := Ideal) V c t.val t.isLt).2 (ix3 p (0 : Fin 1) d)
      = ∑ k ∈ Finset.range (t.val % 16 + 1), ∑ q : Fin 256,
          at3 (V c main_v13) (8 * (t.val / 16) + p.val) 0 (k * 256 + q.val) * at3 (V c main_arg0) (8 * (t.val / 16) + p.val) (k * 256 + q.val) d.val :=
  acc_aux V c p d t.val t.isLt

/-- At a last tile the output's staging buffer holds the accumulator. -/
theorem out_apply (c : Dev nD) (t : Fin cfg1.N) (h : t.val % 16 = 15) (p : Fin 8) (d : Fin 1024) :
    (outsAt1 (F := Ideal) V c t.val t.isLt).1 (ix3 p (0 : Fin 1) d) = (outsAt1 (F := Ideal) V c t.val t.isLt).2 (ix3 p (0 : Fin 1) d) := by
  have h0 : ¬t.val % 16 = 0 := by omega
  have e1 := congrArg Prod.fst (outsAt1_C V c t h0 h)
  have e2 := congrArg Prod.snd (outsAt1_C V c t h0 h)
  dsimp only at e1 e2
  refine (congrFun e1 _).trans (Eq.trans ?_ (congrFun e2 _).symm)
  exact (congrFun (out_C ..) _).trans (congrFun (sout_C ..) _).symm

end Acc

/-! ## The output array after the pass -/

section Final
variable (V : (c : Dev nD) → (b : Ref sig .tc) → Buf (Elt Ideal) ((c : Thread nD τ).loc b))

/-- The array the pass leaves: at (b, 0, d) the sum over all 4096 times of the weight times the first argument's entry. -/
def ctxG (c : Dev nD) : S32x1x1024.Idx → EReal :=
  fun i => ∑ t : Fin 4096, at3 (V c main_v13) (i 0).val 0 t.val * at3 (V c main_arg0) (i 0).val t.val (i 2).val

/-- What a last tile writes back is its block of that array: the staging buffer holds the accumulator, the
    accumulator the sum over the batch tile's 16 time tiles, and 16 tiles of 256 times are the 4096 times. -/
theorem flushed_eq (c : Dev nD) (t : Fin cfg1.N) (hf : (cfg1.win 2).flush t = true) :
    (dat1 (F := Ideal) V c).flushed 2 t = ((cfg1.win 2).blk t).view.read (Elt Ideal) (ctxG V c) := by
  have h15 : t.val % 16 = 15 := (flush1_2 t).mp hf
  obtain ⟨e0, e1, e2⟩ := idx1_2 t
  have hN : t.val < 64 := lt_of_lt_of_eq t.isLt (show cfg1.N = 64 from N_1)
  show (cfg1.win 2).cut (grid1.coords t) ((dat1 V c).after 2 t) = _
  rw [after1_2]
  funext j
  rw [View.read_apply]
  obtain ⟨p, z, d, rfl⟩ : ∃ (p : Fin 8) (z : Fin 1) (d : Fin 1024), j = ix3 p z d :=
    ⟨j 0, j 1, j 2, eq_ix3 (n0 := 8) (n1 := 1) (n2 := 1024) j⟩
  obtain rfl : z = 0 := Subsingleton.elim _ _
  show (outsAt1 (F := Ideal) V c t.val t.isLt).1 (ix3 p (0 : Fin 1) d) = ctxG V c (((cfg1.win 2).blk t).view.emb (ix3 p (0 : Fin 1) d))
  rw [out_apply V c t h15 p d, acc_apply V c t p d, h15]
  have r0 : ((((cfg1.win 2).blk t).view.emb (ix3 p (0 : Fin 1) d)) 0).val = 8 * (t.val / 16) + p.val := by
    show win1_2.index t (0 : Fin 3) * 8 + 1 * p.val = _
    rw [e0]; omega
  have r2 : ((((cfg1.win 2).blk t).view.emb (ix3 p (0 : Fin 1) d)) 2).val = d.val := by
    show win1_2.index t (2 : Fin 3) * 1024 + 1 * d.val = _
    rw [e2]; omega
  unfold ctxG
  rw [r0, r2]
  refine Eq.trans ?_ (sum_tiles (fun n => at3 (V c main_v13) (8 * (t.val / 16) + p.val) 0 n * at3 (V c main_arg0) (8 * (t.val / 16) + p.val) n d.val)).symm
  exact Finset.sum_range _

/-- An index of the output array is in point t's block iff each coordinate is in the block's range on its axis. -/
theorem mem_blk2 (t : Fin cfg1.N) (i : S32x1x1024.Idx) :
    i ∈ ((cfg1.win 2).blk t).view.set ↔ ∀ a : Fin 3, win1_2.index t a * S8x1x1024.size a ≤ (i a).val ∧ (i a).val < win1_2.index t a * S8x1x1024.size a + S8x1x1024.size a := by
  show i ∈ ((View.whole main_v14).slice (win1_2.rect t)).set ↔ _
  rw [View.set_slice_whole, Rect.mem_set_unit]
  exact Iff.rfl

/-- Every index (b, 0, d) of the output array lies in the block written back at the last tile of batch tile b / 8. -/
theorem covered (i : S32x1x1024.Idx) : ∃ t : Fin cfg1.N, (cfg1.win 2).flush t = true ∧ i ∈ ((cfg1.win 2).blk t).view.set := by
  have hi0 : (i 0).val < 32 := (i 0).isLt
  have hi1 : (i 1).val < 1 := (i 1).isLt
  have hi2 : (i 2).val < 1024 := (i 2).isLt
  have hN : cfg1.N = 64 := N_1
  obtain ⟨t, ht⟩ : ∃ t : Fin cfg1.N, t.val = 16 * ((i 0).val / 8) + 15 := ⟨⟨16 * ((i 0).val / 8) + 15, by rw [hN]; omega⟩, rfl⟩
  obtain ⟨e0, e1, e2⟩ := idx1_2 t
  refine ⟨t, (flush1_2 t).mpr (by omega), (mem_blk2 t i).mpr fun a => ?_⟩
  match a with
  | ⟨0, _⟩ =>
    show win1_2.index t (0 : Fin 3) * 8 ≤ (i 0).val ∧ (i 0).val < win1_2.index t (0 : Fin 3) * 8 + 8
    rw [e0]; omega
  | ⟨1, _⟩ =>
    show win1_2.index t (1 : Fin 3) * 1 ≤ (i 1).val ∧ (i 1).val < win1_2.index t (1 : Fin 3) * 1 + 1
    rw [e1]; omega
  | ⟨2, _⟩ =>
    show win1_2.index t (2 : Fin 3) * 1024 ≤ (i 2).val ∧ (i 2).val < win1_2.index t (2 : Fin 3) * 1024 + 1024
    rw [e2]; omega

/-- After the context pass its output array holds, at (b, 0, d), the sum over all 4096 times of the weight times the first argument's entry. -/
theorem ctx_final (c : Dev nD) :
    (dat1 (F := Ideal) V c).arrAt 2 cfg1.N
      = fun i => ∑ t : Fin 4096, at3 (V c main_v13) (i 0).val 0 t.val * at3 (V c main_arg0) (i 0).val t.val (i 2).val :=
  (dat1 (F := Ideal) V c).arrAt_eq_of_cover 2 (ctxG V c) (flushed_eq V c) fun i => covered i

end Final

end Cert.KernelIdeal.AccValue

end
-- ==== Proof.KernelValue.lean ====
/-
  What the idealized kernel returns, as functions of the launch arguments, read off the two passes' final contents.
  After the score pass the scores' array holds the contraction over the feature axis; the host re-lays it to
  [32, 4096], where entry (b, t) is entry (b, t, 0), so it is the reference's score array entry by entry. Both programs
  then apply the same softmax chain — one function — so the weights agree. The weights re-laid to [32, 1, 4096] feed
  the context pass, whose output holds at (b, 0, d) the sum over all times of weight times entry: the reference's
  context, with the product commuted.
-/
import proofs.«181349_j1580547973475_1_alg».proof.Proof.KIRun
import proofs.«181349_j1580547973475_1_alg».proof.Proof.RefRead
import proofs.«181349_j1580547973475_1_alg».proof.Proof.ScoreValue
import proofs.«181349_j1580547973475_1_alg».proof.Proof.AccValue
import proofs.«181349_j1580547973475_1_alg».proof.Proof.At3
import Idealize.ShloMosaic.Lib.Pipeline.Value
import Idealize.ShloMosaic.Lib.StableHlo.Run

noncomputable section

namespace Cert.KernelIdeal.KernelValue

open Cert.KernelIdeal Cert.KernelIdeal.Gen Cert.KernelIdeal.Hand Cert.AttnIdx
open Cert.ReferenceIdeal.Read Cert.ReferenceIdeal.RefRead
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The two arguments as launched, typed as the reference's stages take them. -/
abbrev X0 (c : Dev nD) : (⟨Cert.ReferenceIdeal.S32x4096x1024, .f32⟩ : BufTy).Contents (Elt Ideal) := m ((c : Thread nD τ).loc main_arg0)
abbrev X1 (c : Dev nD) : (⟨Cert.ReferenceIdeal.S32x1x1024, .f32⟩ : BufTy).Contents (Elt Ideal) := m ((c : Thread nD τ).loc main_arg1)

/-- After the score pass the scores' array holds the contraction over the feature axis. -/
theorem w1_v0 (c : Dev nD) :
    W1 m ρ c (Proc.devRef .tc main_v0)
      = fun i => ∑ d : Fin 1024, at3 (X0 m c) (i 0).val (i 1).val d.val * at3 (X1 m c) (i 0).val 0 d.val :=
  (W1_arr m ρ c 2).trans (Cert.KernelIdeal.ScoreValue.score_final (V0r m ρ) c)

/-- The first argument is still as launched between the passes. -/
theorem w2_arg0 (c : Dev nD) : W2 m ρ c (Proc.devRef .tc main_arg0) = X0 m c :=
  (W2_keeps_arg0 m ρ c).trans ((W1_arr m ρ c 0).trans (((dat0 (V0r m ρ) c).arrAt_in 0 rfl _).trans (A_eq0 (V0r m ρ) c 0)))

/-- The scores re-laid to [32, 4096] are the reference's scores, entry by entry: the same sum over the feature axis. -/
theorem w2_v1_apply (c : Dev nD) (b : Fin 32) (t : Fin 4096) :
    W2 m ρ c (Proc.devRef .tc main_v1) (ix2 b t) = val_main_v2 (F := Ideal) (X0 m c) (X1 m c) (ix2 b t) := by
  have h : W2 m ρ c (Proc.devRef .tc main_v1) (ix2 b t)
      = W1 m ρ c (Proc.devRef .tc main_v0) (ix3 b t (0 : Fin 1)) := by
    show StableHlo.after hostOps1 _ (Proc.devRef .tc main_v1) (ix2 b t) = _
    after_results
    exact shapeCast_apply _ _ (ix2 b t) (ix3 b t (0 : Fin 1)) (by
      rw [Shape.rowMajor_val_three, Shape.rowMajor_val_two]
      show (b.val * 4096 + t.val) * 1 + 0 = b.val * 4096 + t.val
      omega)
  rw [h, w1_v0, scores_apply]
  show (∑ d : Fin 1024, at3 (X0 m c) b.val t.val d.val * at3 (X1 m c) b.val 0 d.val : EReal)
    = ∑ d : Fin 1024, (X0 m c (ix3 b t d) * X1 m c (ix3 b (0 : Fin 1) d) : EReal)
  exact Finset.sum_congr rfl fun d _ =>
    congrArg₂ (fun u v : EReal => u * v) (at3_ix3 (X0 m c) b t d) (at3_ix3 (X1 m c) b (0 : Fin 1) d)

theorem w2_v1 (c : Dev nD) : W2 m ρ c (Proc.devRef .tc main_v1) = val_main_v2 (F := Ideal) (X0 m c) (X1 m c) :=
  funext fun j => by
    obtain ⟨b, t, rfl⟩ : ∃ (b : Fin 32) (t : Fin 4096), j = ix2 b t := ⟨j 0, j 1, eq_ix2 j⟩
    exact w2_v1_apply m ρ c b t

/-- The weights: both programs apply the same softmax chain, one function, to equal scores. -/
theorem w2_v12 (c : Dev nD) : W2 m ρ c (Proc.devRef .tc main_v12) = val_main_v13 (F := Ideal) (X0 m c) (X1 m c) := by
  have h : W2 m ρ c (Proc.devRef .tc main_v12) = smax (W2 m ρ c (Proc.devRef .tc main_v1)) := by
    show StableHlo.after hostOps1 _ (Proc.devRef .tc main_v12) = smax (StableHlo.after hostOps1 _ (Proc.devRef .tc main_v1))
    after_results
    try rfl
  rw [h, w2_v1, ← weights_eq]

/-- The weights re-laid to [32, 1, 4096], read at an index. -/
theorem w2_v13_apply (c : Dev nD) (b : Fin 32) (t : Fin 4096) :
    W2 m ρ c (Proc.devRef .tc main_v13) (ix3 b (0 : Fin 1) t) = val_main_v13 (F := Ideal) (X0 m c) (X1 m c) (ix2 b t) := by
  have h : W2 m ρ c (Proc.devRef .tc main_v13)
      = broadcastInDim S32x1x4096 ![0, 2] bcast_S32x4096_S32x1x4096_0_2 (W2 m ρ c (Proc.devRef .tc main_v12)) := by
    show StableHlo.after hostOps1 _ (Proc.devRef .tc main_v13) = broadcastInDim S32x1x4096 ![0, 2] bcast_S32x4096_S32x1x4096_0_2 (StableHlo.after hostOps1 _ (Proc.devRef .tc main_v12))
    after_results
    try rfl
  rw [h, w2_v12]
  exact broadcastInDim_apply _ _ _ (ix3 b (0 : Fin 1) t) (ix2 b t) (fun a => match a with
    | ⟨0, _⟩ => rfl
    | ⟨1, _⟩ => rfl)

/-- THE WEIGHTS the kernel returns are the reference's. -/
theorem kernel_ax (c : Dev nD) : W3 m ρ c (Proc.devRef .tc main_v12) = val_main_v13 (F := Ideal) (X0 m c) (X1 m c) :=
  (W3_of_ne m ρ c main_v12 (by decide)).trans (w2_v12 m ρ c)

/-- THE CONTEXT the kernel returns is the reference's: the sixteen tiles' sums are the one sum over all times, and the
    product commutes. -/
theorem kernel_sx (c : Dev nD) : W3 m ρ c (Proc.devRef .tc main_v14) = val_main_v18 (F := Ideal) (X0 m c) (X1 m c) := by
  refine (W3_arr m ρ c 2).trans ((Cert.KernelIdeal.AccValue.ctx_final (V2r m ρ) c).trans (funext fun i => ?_))
  obtain ⟨b, z, d, rfl⟩ : ∃ (b : Fin 32) (z : Fin 1) (d : Fin 1024), i = ix3 b z d := ⟨i 0, i 1, i 2, eq_ix3 i⟩
  obtain rfl : z = 0 := Subsingleton.elim _ _
  rw [ctx_apply]
  refine Finset.sum_congr rfl fun t _ => ?_
  have e1 : at3 (V2r m ρ c main_v13) b.val 0 t.val = val_main_v13 (F := Ideal) (X0 m c) (X1 m c) (ix2 b t) :=
    (at3_ix3 (V2r m ρ c main_v13) b (0 : Fin 1) t).trans (w2_v13_apply m ρ c b t)
  have e2 : at3 (V2r m ρ c main_arg0) b.val t.val d.val = X0 m c (ix3 b t d) :=
    (at3_ix3 (V2r m ρ c main_arg0) b t d).trans (congrFun (w2_arg0 m ρ c) _)
  show at3 (V2r m ρ c main_v13) b.val 0 t.val * at3 (V2r m ρ c main_arg0) b.val t.val d.val = _
  rw [e1, e2, mul_comm]

end Cert.KernelIdeal.KernelValue

end
-- ==== Proof.lean ====
/-
  The kernel computes attention scores pax[b, t] = Σ_d eh[b, t, d] · dhx[b, 0, d] in a first pass over the grid of
  4 batch tiles × 16 time tiles, applies the row softmax to them on the host, and in a second pass over the same grid
  accumulates the context sx[b, 0, d] = Σ_t ax[b, t] · eh[b, t, d] tile by tile in a scratch accumulator that lives
  across the sixteen time tiles of a batch tile (zeroed at the first, copied out at the last). The reference computes
  the same two sums whole. On the extended reals the two programs agree: a change of float format is the identity,
  the matrix unit's product into a zero accumulator is the plain sum over the contracted axis, the host's softmax
  chain is literally the same chain of operations and the same words on both sides (kept as one function), and the
  sum over 4096 times is the sum of its sixteen tiles of 256 with the product commuted — laws of a commutative
  monoid and a commutative product, which hold at the infinities too, so finiteness of the inputs is never used.
  The frames (each program runs to the end, faults nowhere, leaves its arguments unchanged) are those of the two
  passes composed through the sixteen host operations between them, at the word level and at the ideal instance
  alike; the idealization rewrote nothing, so the preservation claim is trivial.
-/
import proofs.«181349_j1580547973475_1_alg».proof.Defs
import proofs.«181349_j1580547973475_1_alg».proof.Proof.Gen.Kernel
import proofs.«181349_j1580547973475_1_alg».proof.Proof.Gen.KernelIdeal
import proofs.«181349_j1580547973475_1_alg».proof.Proof.Gen.ReferenceIdeal
import proofs.«181349_j1580547973475_1_alg».proof.Proof.Gen.Pre_finite_inputs
import proofs.«181349_j1580547973475_1_alg».proof.Proof.Gen.ReferenceIdeal.Run
import proofs.«181349_j1580547973475_1_alg».proof.Proof.Gen.ReferenceIdeal.Read
import proofs.«181349_j1580547973475_1_alg».proof.Proof.KRun
import proofs.«181349_j1580547973475_1_alg».proof.Proof.KIRun
import proofs.«181349_j1580547973475_1_alg».proof.Proof.KernelValue
import Idealize.ShloMosaic.Adequacy
import Idealize.ShloMosaic.Init

noncomputable section

namespace Cert.Proof

open Idealize.ShloMosaic Idealize.SL.Sem

/-- The word-level kernel runs to the end and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the reference's context and weights of the launch arguments: the kernel by reading its
    two result arrays off the passes' final contents, the reference by its run. -/
theorem algebraic : Cert.algebraic_KernelIdeal_ReferenceIdeal := by
  intro m ρ m' ρ' _ hagree
  refine ⟨fun c => Cert.ReferenceIdeal.Read.val_main_v18 (F := Ideal) (Cert.KernelIdeal.KernelValue.X0 m c) (Cert.KernelIdeal.KernelValue.X1 m c),
    fun c => Cert.ReferenceIdeal.Read.val_main_v13 (F := Ideal) (Cert.KernelIdeal.KernelValue.X0 m c) (Cert.KernelIdeal.KernelValue.X1 m c), ?_, ?_⟩
  · exact (θ_run Cert.KernelIdeal.defs _ _).mono (fun r h c =>
      ⟨(h c Cert.KernelIdeal.main_v14 (by decide)).trans (Cert.KernelIdeal.KernelValue.kernel_sx m ρ c),
        (h c Cert.KernelIdeal.main_v12 (by decide)).trans (Cert.KernelIdeal.KernelValue.kernel_ax m ρ c),
        (h c Cert.KernelIdeal.main_arg0 (by decide)).trans (Cert.KernelIdeal.Hand.W3_main_arg0 m ρ c),
        (h c Cert.KernelIdeal.main_arg1 (by decide)).trans (Cert.KernelIdeal.Hand.W3_main_arg1 m ρ c)⟩)
      (Cert.KernelIdeal.Hand.run_all (F := Ideal) m ρ)
  · refine (θ_run Cert.ReferenceIdeal.defs _ _).mono (fun r h c =>
      ⟨(h c).1.trans ?_, (h c).2.1.trans ?_, (h c).2.2.1, (h c).2.2.2⟩) (Cert.ReferenceIdeal.Value.run (F := Ideal) m' ρ')
    · rw [(hagree c).1, (hagree c).2]; exact Cert.ReferenceIdeal.Read.val_main_v18_eq _ _
    · rw [(hagree c).1, (hagree c).2]; exact Cert.ReferenceIdeal.Read.val_main_v13_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
